-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608 : Shape := ⟨1, ![8388608]⟩
abbrev S_ : Shape := ⟨0, ![]⟩

class Facts : Prop where
  bcast_S_S8388608 : S_.BroadcastsInDim S8388608 (![] : Fin 0 → Fin S8388608.rank)
  reducesTo_S8388608_S_d0 : S8388608.ReducesTo [0] S_
  h_S_ : 0 < S_.numel

variable [Facts]

def fn {F : FTy → Type} [FloatOps F] (main_arg0 : FVec F S8388608 .f32) : IVec S_ 1 :=
  let main_v0 : FVec F S8388608 .f32 := Host.absf main_arg0
  let main_cst : FVec F S_ .f32 := constant S_ .f32 0x7F800000#32
  let main_v1 : FVec F S8388608 .f32 := broadcastInDim S8388608 ![] bcast_S_S8388608 main_cst
  let main_v2 : IVec S8388608 1 := cmpf .olt main_v0 main_v1
  let main_c : IVec S_ 1 := constantI S_ 1 1#1
  let main_v3 : IVec S_ 1 := (fun x v => Host.reduce IntOp.andi x v reducesTo_S8388608_S_d0 h_S_) main_v2 main_c
  main_v3
-- ==== Kernel.lean ====
abbrev S8388608 : Shape := ⟨1, ![8388608]⟩
abbrev S65536x128 : Shape := ⟨2, ![65536, 128]⟩
abbrev S2048x128 : Shape := ⟨2, ![2048, 128]⟩
abbrev S1x128 : Shape := ⟨2, ![1, 128]⟩

abbrev nBuf : Space → Nat
  | .hbm => 4
  | .vmem => 5
  | .smem => 0
  | _ => 0

abbrev bufTy : (tb : Table) → Fin (tcTables nBuf tb) → BufTy
  | .hbm, ⟨0, _⟩ => ⟨S8388608, .f32⟩
  | .hbm, ⟨1, _⟩ => ⟨S65536x128, .f32⟩
  | .hbm, ⟨2, _⟩ => ⟨S65536x128, .f32⟩
  | .hbm, ⟨3, _⟩ => ⟨S8388608, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x128, .f32⟩
  | _, _ => ⟨S8388608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8388608_S65536x128 : S8388608.ShapeCasts S65536x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x128_d1_w32 : S2048x128.Iotas .tc 32 [1]
  iota_S2048x128_d0_w32 : S2048x128.Iotas .tc 32 [0]
  rotates_S2048x128_d1 : S2048x128.Rotates 1 none
  rotates_S2048x128_d0 : S2048x128.Rotates 0 none
  broadcasts_S1x128_S2048x128 : S1x128.Broadcasts S2048x128
  slices_S2048x128_o2047_0_S1x128 : S2048x128.Slices ![2047, 0] S1x128
  shapeCasts_S65536x128_S8388608 : S65536x128.ShapeCasts S8388608
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S65536x128.size a
  hwx0_1 : ∀ i : grid0.Coords, EltTy.bits .f32 = 32 ∨ (Rect.block (s := S65536x128) S2048x128.size (cc0_transform_1 i) (hinb0_1 i)).WholeWords (EltTy.packing .f32)

variable [Facts₀]

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608 : Shape := ⟨1, ![8388608]⟩
abbrev S_ : Shape := ⟨0, ![]⟩
abbrev S127 : Shape := ⟨1, ![127]⟩
abbrev S8388735 : Shape := ⟨1, ![8388735]⟩

abbrev nBuf : Space → Nat
  | .hbm => 7
  | .vmem => 0
  | .smem => 0
  | _ => 0

abbrev bufTy : (tb : Table) → Fin (tcTables nBuf tb) → BufTy
  | .hbm, ⟨0, _⟩ => ⟨S8388608, .f32⟩
  | .hbm, ⟨1, _⟩ => ⟨S_, .f32⟩
  | .hbm, ⟨2, _⟩ => ⟨S127, .f32⟩
  | .hbm, ⟨3, _⟩ => ⟨S8388735, .f32⟩
  | .hbm, ⟨4, _⟩ => ⟨S_, .f32⟩
  | .hbm, ⟨5, _⟩ => ⟨S_, .f32⟩
  | .hbm, ⟨6, _⟩ => ⟨S8388608, .f32⟩
  | _, _ => ⟨S8388608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S127 : S_.BroadcastsInDim S127 (![] : Fin 0 → Fin S127.rank)
  concatenates_S127_S8388608_S8388735_d0 : Shape.Concatenates [S127, S8388608] S8388735 0
  bcast_S_S_ : S_.BroadcastsInDim S_ (![] : Fin 0 → Fin S_.rank)
  reduceWindows_S8388735_S8388608_w128s1p0_0 : S8388735.ReduceWindows (![128] : Fin 1 → Nat) ![1] ![0] ![0] S8388608
  h_S_ : 0 < S_.numel

variable [Facts₀]

class Facts : Prop extends Facts₀ where

variable [Facts]
-- ==== Proof.Body.lean ====
/-
  The kernel body's two stored values as functions of what the body loads: the block of the input (2048 rows of 128)
  and the one carried row (the running minima of the tails of the previous block's last row).  Each is the printed
  chain of roll / mask / minimum steps; these definitions only give the two chains a name.
-/
import proofs.«168143_j80865644249734_1_alg».proof.Proof.Gen.KernelIdeal.Skeleton

noncomputable section

namespace Cert.KernelIdeal.Body

open Idealize.ShloMosaic Cert.KernelIdeal Cert.KernelIdeal.Gen

variable {F : FTy → Type} [FloatOps F]

/-- The lane number of every entry of a block. -/
abbrev lane : IVec S2048x128 32 := iota .tc S2048x128 32 [1] iota_S2048x128_d1_w32
/-- The row number of every entry of a block. -/
abbrev rowIx : IVec S2048x128 32 := iota .tc S2048x128 32 [0] iota_S2048x128_d0_w32

/-- Per row, the running minimum from the left (seven doubling steps). -/
def prefixScan (x0 : Vec F S2048x128 .f32) : FVec F S2048x128 .f32 :=
  k0_pay8 lane (k0_pay6 x0) (k0_pay7 x0)

/-- Per row, the running minimum from the right (seven doubling steps). -/
def suffixScan (x0 : Vec F S2048x128 .f32) : FVec F S2048x128 .f32 :=
  k0_pay1 lane (k0_pay9 (k0_pay5 x0) lane) (k0_pay10 (k0_pay5 x0) lane)

/-- What the body stores in the output block, from the input block `x0` and the carried row `xs`. -/
def outPay (x0 : Vec F S2048x128 .f32) (xs : Vec F S1x128 .f32) : FVec F S2048x128 .f32 :=
  k0_pay2 lane rowIx (k0_pay8 lane (k0_pay6 x0) (k0_pay7 x0)) (k0_pay9 (k0_pay5 x0) lane) (k0_pay10 (k0_pay5 x0) lane) xs

/-- What the body stores in the carried row, from the input block `x0`. -/
def carryPay (x0 : Vec F S2048x128 .f32) : FVec F S1x128 .f32 :=
  k0_pay3 lane (k0_pay9 (k0_pay5 x0) lane) (k0_pay10 (k0_pay5 x0) lane)

end Cert.KernelIdeal.Body

end
-- ==== Proof.Pieces.lean ====
/-
  What the kernel body leaves behind, as values.

  At the first grid point the body first fills the carried row with +∞ and then works as at every other point: it
  loads its block of 2048 rows, computes per row the running minima from the left and from the right, stores into the
  output block the minimum of the left scan and the previous row's right scan shifted by one lane (the previous row
  of the block's first row being the carried row), and stores the last row's right scan into the carried row.  The
  lemmas below read the stored pieces back: the output block holds `outPay` of the input block and of the carried
  row as the body found it (+∞ at the first point), and the carried row holds `carryPay` of the input block.
-/
import proofs.«168143_j80865644249734_1_alg».proof.Proof.Gen.KernelIdeal.Frame
import proofs.«168143_j80865644249734_1_alg».proof.Proof.Body
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen Cert.KernelIdeal.Body

variable {F : FTy → Type} [FloatOps F]

theorem hz : (![0, 0] : Fin 2 → Nat) = fun _ => 0 := funext fun a => by fin_cases a <;> rfl

/-- At a later point the output block is the body's output value of the input block and the carried row. -/
theorem out_B (c : Dev nD) (i : grid0.Coords) (a1 : Memref sig .tc .vmem S2048x128 .f32) (h1 : a1.IsWhole)
    (a2 : Memref sig .tc .vmem S2048x128 .f32) (h2 : a2.IsWhole) (a3 : Memref sig .tc .vmem S1x128 .f32) (h3 : a3.IsWhole)
    (hc : ¬cond0_0 i) (x0 : Vec F S2048x128 .f32) (xs0 : Vec F S1x128 .f32) :
    out0_B_1 c i a1 h1 a2 h2 a3 h3 hc x0 xs0 = outPay x0 xs0 := by
  unfold out0_B_1
  rw [View.read_writes_eq_canon _ _ _ (cover0_B_1 c i a1 h1 a2 h2 a3 h3 hc x0 xs0)]
  unfold kernelRun0_B
  dsimp only
  sl_unfold_words
  rw [View.canon_unit_zero hz]
  simp only [View.readAt_eq_ld, h1.read_unread, h3.read_unread, View.ld_unit_zero (S := S2048x128) hz, View.ld_unit_zero (S := S1x128) hz]
  rfl

/-- At a later point the carried row is left at the last row's right scan. -/
theorem sout_B (c : Dev nD) (i : grid0.Coords) (a1 : Memref sig .tc .vmem S2048x128 .f32) (h1 : a1.IsWhole)
    (a2 : Memref sig .tc .vmem S2048x128 .f32) (h2 : a2.IsWhole) (a3 : Memref sig .tc .vmem S1x128 .f32) (h3 : a3.IsWhole)
    (hc : ¬cond0_0 i) (x0 : Vec F S2048x128 .f32) (xs0 : Vec F S1x128 .f32) :
    sout0_B_0 c i a1 h1 a2 h2 a3 h3 hc x0 xs0 = carryPay x0 := by
  unfold sout0_B_0
  rw [View.read_writes_eq_canon _ _ _ (scover0_B_0 c i a1 h1 a2 h2 a3 h3 hc x0 xs0)]
  unfold kernelRun0_B
  dsimp only
  sl_unfold_words
  rw [View.canon_unit_zero hz]
  simp only [View.readAt_eq_ld, h1.read_unread, h3.read_unread, View.ld_unit_zero (S := S2048x128) hz, View.ld_unit_zero (S := S1x128) hz]
  rfl

/-- At the first point the carried row the body reads back is the +∞ row it has just stored. -/
theorem out_A (c : Dev nD) (i : grid0.Coords) (a1 : Memref sig .tc .vmem S2048x128 .f32) (h1 : a1.IsWhole)
    (a2 : Memref sig .tc .vmem S2048x128 .f32) (h2 : a2.IsWhole) (a3 : Memref sig .tc .vmem S1x128 .f32) (h3 : a3.IsWhole)
    (hc : cond0_0 i) (x0 : Vec F S2048x128 .f32) :
    out0_A_1 c i a1 h1 a2 h2 a3 h3 hc x0 = outPay x0 k0_pay4 := by
  unfold out0_A_1
  rw [View.read_writes_eq_canon _ _ _ (cover0_A_1 c i a1 h1 a2 h2 a3 h3 hc x0)]
  unfold kernelRun0_A
  dsimp only
  sl_unfold_words
  rw [View.canon_unit_zero hz, View.readCov_unit_zero (S := S1x128) _ hz]
  simp only [View.readAt_eq_ld, h1.read_unread, View.ld_unit_zero (S := S2048x128) hz]
  rfl

/-- At the first point, too, the carried row is left at the last row's right scan (the later store wins). -/
theorem sout_A (c : Dev nD) (i : grid0.Coords) (a1 : Memref sig .tc .vmem S2048x128 .f32) (h1 : a1.IsWhole)
    (a2 : Memref sig .tc .vmem S2048x128 .f32) (h2 : a2.IsWhole) (a3 : Memref sig .tc .vmem S1x128 .f32) (h3 : a3.IsWhole)
    (hc : cond0_0 i) (x0 : Vec F S2048x128 .f32) :
    sout0_A_0 c i a1 h1 a2 h2 a3 h3 hc x0 = carryPay x0 := by
  unfold sout0_A_0
  rw [View.read_writes_eq_canon _ _ _ (scover0_A_0 c i a1 h1 a2 h2 a3 h3 hc x0)]
  unfold kernelRun0_A
  dsimp only
  sl_unfold_words
  rw [View.canon_cons_unit_zero (S := S1x128) hz]
  simp only [View.readAt_eq_ld, h1.read_unread, View.ld_unit_zero (S := S2048x128) hz]
  rfl

end Cert.KernelIdeal.Pieces
end
-- ==== Proof.LibWindowMin.lean ====
/-
  Interval infima on the extended reals: the arithmetic of a sliding-window minimum of width 128.

  `winInf f a b` is the infimum of `f` over the integers a, …, b (`⊤` for an empty interval), and `H g q j` is the
  window minimum of a sequence cut into rows of 128, written row-wise.  This module (it needs nothing but the
  extended reals) proves the three facts a comparison of a blocked window minimum with a flat one rests on:

  * an interval infimum only depends on the values on the interval, can be split at any interior point, and the
    infimum of a shifted function is the infimum over the shifted interval;
  * for a sequence cut into rows of 128, the window of 128 entries that ends at column j of row q is the tail of
    row q - 1 from column j + 1 on together with the head of row q up to column j (for the first row there is no
    previous row, and the truncated subtraction of the naturals clips the window at 0);
  * a left fold of `min` that starts from `⊤` and visits the entries i, i + 1, …, i + 127 is the infimum over
    that interval.
-/
import Idealize.ShloMosaic.PureOps.Ideal

noncomputable section

namespace Cert.SlidingMin

/-- The minimum of `f` over the integers `a, a+1, …, b`; `⊤` when `b < a`. -/
def winInf (f : ℕ → EReal) (a b : ℕ) : EReal := (Finset.Icc a b).inf f

/-- The window minimum in rows of 128: entry `(q, j)` is the minimum of the tail of row `q - 1` from column
    `j + 1` on (nothing, for the first row) and of the head of row `q` up to column `j`. -/
def H (g : ℕ → ℕ → EReal) (q j : ℕ) : EReal :=
  min (if q = 0 then ⊤ else winInf (g (q - 1)) (j + 1) 127) (winInf (g q) 0 j)

/-- An interval infimum only depends on the values of the function on the interval. -/
theorem winInf_congr (f g : ℕ → EReal) (a b : ℕ) (h : ∀ k, a ≤ k → k ≤ b → f k = g k) :
    winInf f a b = winInf g a b := by
  unfold winInf
  refine Finset.inf_congr rfl ?_
  intro k hk
  rw [Finset.mem_Icc] at hk
  exact h k hk.1 hk.2

/-- The infimum over an empty interval is `⊤`. -/
theorem winInf_empty (f : ℕ → EReal) (a b : ℕ) (h : b < a) : winInf f a b = ⊤ := by
  unfold winInf
  rw [Finset.Icc_eq_empty (by omega), Finset.inf_empty]

/-- The infimum of a shifted function is the infimum over the shifted interval. -/
theorem winInf_shift (f : ℕ → EReal) (c a b : ℕ) :
    winInf (fun k => f (c + k)) a b = winInf f (c + a) (c + b) := by
  unfold winInf
  rw [← Finset.image_add_left_Icc, Finset.inf_image]
  rfl

/-- An interval infimum splits at any point `m` with `a ≤ m + 1` and `m ≤ b`. -/
theorem winInf_split (f : ℕ → EReal) (a m b : ℕ) (h1 : a ≤ m + 1) (h2 : m ≤ b) :
    winInf f a b = min (winInf f a m) (winInf f (m + 1) b) := by
  unfold winInf
  have hU : Finset.Icc a b = Finset.Icc a m ∪ Finset.Icc (m + 1) b := by
    ext k
    simp only [Finset.mem_Icc, Finset.mem_union]
    omega
  rw [hU, Finset.inf_union]

/-- Adding the next entry on the right of an interval. -/
theorem winInf_succ_right (f : ℕ → EReal) (a b : ℕ) (h : a ≤ b + 1) :
    winInf f a (b + 1) = min (winInf f a b) (f (b + 1)) := by
  rw [winInf_split f a b (b + 1) h (by omega)]
  congr 1
  unfold winInf
  rw [Finset.Icc_self, Finset.inf_singleton]

/-- The window of 128 entries ending at flat position `128 q + j`, in rows of 128: the tail of row `q - 1` from
    column `j + 1` on, together with the head of row `q` up to column `j`. -/
theorem H_eq_flat (f : ℕ → EReal) (g : ℕ → ℕ → EReal) (hg : ∀ q k, k < 128 → g q k = f (128 * q + k))
    (q j : ℕ) (hj : j < 128) :
    H g q j = winInf f (128 * q + j - 127) (128 * q + j) := by
  -- the head of row q is the interval 128 q, …, 128 q + j of the flat sequence
  have hhead : winInf (g q) 0 j = winInf f (128 * q) (128 * q + j) := by
    rw [winInf_congr (g q) (fun k => f (128 * q + k)) 0 j (fun k _ hk => hg q k (by omega))]
    exact winInf_shift f (128 * q) 0 j
  unfold H
  rcases Nat.eq_zero_or_pos q with hq | hq
  · -- first row: no previous row, and the window is clipped at 0
    subst hq
    rw [if_pos rfl, hhead, min_eq_right le_top]
    have : 128 * 0 + j - 127 = 128 * 0 := by omega
    rw [this]
  · obtain ⟨p, rfl⟩ : ∃ p, q = p + 1 := ⟨q - 1, by omega⟩
    rw [if_neg (by omega), hhead]
    have htail : winInf (g (p + 1 - 1)) (j + 1) 127 = winInf f (128 * p + (j + 1)) (128 * p + 127) := by
      have hp : p + 1 - 1 = p := by omega
      rw [hp, winInf_congr (g p) (fun k => f (128 * p + k)) (j + 1) 127 (fun k _ hk => hg p k (by omega))]
      exact winInf_shift f (128 * p) (j + 1) 127
    rw [htail]
    have e1 : 128 * (p + 1) + j - 127 = 128 * p + (j + 1) := by omega
    have e2 : 128 * (p + 1) = 128 * p + 127 + 1 := by omega
    rw [e1, winInf_split f (128 * p + (j + 1)) (128 * p + 127) (128 * (p + 1) + j) (by omega) (by omega), ← e2]

/-- A left fold of `min` over the entries `h 0, …, h (n - 1)`, started at `r`, is the minimum of `r` and the
    infimum of these entries. -/
theorem foldl_range_min (h : ℕ → EReal) (r : EReal) (n : ℕ) :
    (List.range (n + 1)).foldl (fun r k => min r (h k)) r = min r (winInf h 0 n) := by
  induction n with
  | zero =>
    simp [winInf]
  | succ n ih =>
    rw [List.range_succ, List.foldl_append, ih, List.foldl_cons, List.foldl_nil,
      winInf_succ_right h 0 n (by omega), min_assoc]

/-- The same fold written over `Fin n`. -/
theorem foldl_finRange_min (h : ℕ → EReal) (r : EReal) (n : ℕ) :
    (List.finRange n).foldl (fun r (k : Fin n) => min r (h k.val)) r
      = (List.range n).foldl (fun r k => min r (h k)) r := by
  rw [← List.map_coe_finRange_eq_range, List.foldl_map]

/-- A left fold of `min` from `⊤` over the 128 entries starting at `i` is their infimum. -/
theorem foldl_min_eq_winInf (f : ℕ → EReal) (i : ℕ) :
    (List.finRange 128).foldl (fun r (n : Fin 128) => min r (f (i + n.val))) ⊤ = winInf f i (i + 127) := by
  rw [foldl_finRange_min (fun k => f (i + k)) ⊤ 128, foldl_range_min (fun k => f (i + k)) ⊤ 127,
    min_eq_right le_top]
  exact winInf_shift f i 0 127

end Cert.SlidingMin

end
-- ==== Proof.Spec.lean ====
/-
  The sliding-window minimum, as one function of the input.

  For a sequence x₀, x₁, … the causal window minimum of width 128 at position i is the minimum of the entries
  x_{max(0, i-127)}, …, x_i.  On the extended reals the minimum of no entries is +∞ (the top element), which is what
  both programs use as padding, so every statement below is about `Finset.inf` over integer intervals (`winInf`, and its row-wise
  form `H`, of the interval-infimum module beside this one), with the truncated subtraction of the naturals doing the
  clipping at the front of the sequence.
-/
import Idealize.ShloMosaic.PureOps.Ideal
import Idealize.ShloMosaic.Lib.ValueIdx
import proofs.«168143_j80865644249734_1_alg».proof.Proof.LibWindowMin

noncomputable section

namespace Cert.SlidingMin

open Idealize.ShloMosaic Idealize.ShloMosaic.ValueIdx

/-- A vector of 8388608 entries as a function on all naturals: `⊤` past the end. -/
def flat (x : (⟨1, ![8388608]⟩ : Shape).Idx → EReal) (k : ℕ) : EReal :=
  if h : k < 8388608 then x (ix1 ⟨k, h⟩) else ⊤

/-- A matrix with 128 columns, read at a row and a column given as naturals: `⊤` outside the matrix. -/
def rowN {R : ℕ} (x : (⟨2, ![R, 128]⟩ : Shape).Idx → EReal) (q k : ℕ) : EReal :=
  if h : q < R ∧ k < 128 then x (ix2 ⟨q, h.1⟩ ⟨k, h.2⟩) else ⊤

/-- THE SPECIFICATION: entry `i` of the result is the minimum of the (up to) 128 entries of `x` ending at `i`. -/
def G (x : (⟨1, ![8388608]⟩ : Shape).Idx → EReal) : (⟨1, ![8388608]⟩ : Shape).Idx → EReal :=
  fun i => winInf (flat x) ((i 0).val - 127) (i 0).val

end Cert.SlidingMin

end
-- ==== Proof.ScanStep.lean ====
/-
  One step of a doubling scan along the 128 lanes of a block, read at one entry, and what such a step does to
  window minima.

  A step of the running minimum from the left with shift s replaces the entry at lane j by the minimum of itself and
  the entry at lane j - s, or of itself and +∞ when j < s (the rotation would bring an entry around the end of the
  row, which the lane mask replaces by +∞).  A step from the right with shift s = 128 - t does the same with lane
  j + s, masked when j + s ≥ 128, i.e. when t ≤ j; the rotation amount and the mask bound are the same number t.

  On window minima: if every lane j holds the minimum over the L lanes ending (resp. starting) at j, then after the
  step with shift L it holds the minimum over the 2L lanes ending (resp. starting) at j.  Windows are clipped at
  lane 0 by the truncated subtraction on the left, and on the right by the row being +∞ from lane 128 on.
-/
import proofs.«168143_j80865644249734_1_alg».proof.Proof.Spec
import proofs.«168143_j80865644249734_1_alg».proof.Proof.Body
import Idealize.ShloMosaic.Lib.KernelVsHost
import Idealize.ShloMosaic.Lib.Pipeline.Value
import Idealize.ShloMosaic.Lib.Affine

noncomputable section

namespace Cert.KernelIdeal.Body

open Idealize.ShloMosaic Idealize.ShloMosaic.ValueIdx Cert.KernelIdeal Cert.KernelIdeal.Gen Cert.SlidingMin

/-! ## Words and literals -/

/-- The literal 0x7F800000 is +∞. -/
theorem top_lit : (Scalar.ofBits .f32 0x7F800000#32 : Ideal .f32) = ⊤ := by
  show Ideal.ofBits .f32 0x7F800000#32 = ⊤
  simp [Ideal.ofBits, Ideal.ieee]

/-- The lane number at an entry is its column. -/
theorem lane_apply (p : Fin 2048) (j : Fin 128) : lane (ix2 p j) = BitVec.ofNat 32 j.val :=
  iota_single_apply .tc S2048x128 32 1 iota_S2048x128_d1_w32 (ix2 p j)

/-- A small natural as a 32-bit word reads back signed as itself. -/
theorem toInt_ofNat_small (a : Nat) (ha : a < 2 ^ 31) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- A word whose unsigned value is small reads signed as that value. -/
theorem toInt_of_toNat_small (sb : BitVec 32) (s : Nat) (hsb : sb.toNat = s) (hs : s < 2 ^ 31) : sb.toInt = (s : Int) := by
  rw [BitVec.toInt_eq_toNat_of_lt (by rw [hsb]; omega), hsb]

/-- Signed "less than" of a lane number against a small bound decides as on the naturals. -/
theorem select_slt_small {α : Type} (j : Nat) (hj : j < 128) (sb : BitVec 32) (s : Nat) (hsb : sb.toNat = s) (hs : s < 128)
    (A B : α) : Scalar.select (IntOp.cmpi .slt (BitVec.ofNat 32 j) sb) A B = if j < s then A else B := by
  unfold Scalar.select
  by_cases h : j < s
  · rw [if_pos h, if_pos]
    refine IntOp.cmpi_slt.mpr ?_
    rw [toInt_ofNat_small j (by omega), toInt_of_toNat_small sb s hsb (by omega)]
    exact_mod_cast h
  · rw [if_neg h, if_neg]
    intro hc
    have hc' := IntOp.cmpi_slt.mp hc
    rw [toInt_ofNat_small j (by omega), toInt_of_toNat_small sb s hsb (by omega)] at hc'
    exact h (by exact_mod_cast hc')

/-- Signed "at least" of a lane number against a small bound decides as on the naturals. -/
theorem select_sge_small {α : Type} (j : Nat) (hj : j < 128) (sb : BitVec 32) (t : Nat) (hsb : sb.toNat = t) (ht : t < 128)
    (A B : α) : Scalar.select (IntOp.cmpi .sge (BitVec.ofNat 32 j) sb) A B = if t ≤ j then A else B := by
  unfold Scalar.select
  by_cases h : t ≤ j
  · rw [if_pos h, if_pos]
    refine IntOp.cmpi_sge.mpr ?_
    rw [toInt_ofNat_small j (by omega), toInt_of_toNat_small sb t hsb (by omega)]
    exact_mod_cast h
  · rw [if_neg h, if_neg]
    intro hc
    have hc' := IntOp.cmpi_sge.mp hc
    rw [toInt_ofNat_small j (by omega), toInt_of_toNat_small sb t hsb (by omega)] at hc'
    exact h (by exact_mod_cast hc')

/-! ## One step of each scan, as a function of the current block -/

/-- One step of the scan from the left with shift word `sb`. -/
def pstep (sb : BitVec 32) (cur : FVec Ideal S2048x128 .f32) : FVec Ideal S2048x128 .f32 :=
  minimumf cur (select (cmpi .slt lane (broadcast S2048x128 sb))
    (broadcast S2048x128 (Scalar.ofBits .f32 0x7F800000#32 : Ideal .f32))
    (dynamicRotate 1 sb none cur rotates_S2048x128_d1))

/-- One step of the scan from the right with rotation word `sb` (128 minus the shift). -/
def sstep (sb : BitVec 32) (cur : FVec Ideal S2048x128 .f32) : FVec Ideal S2048x128 .f32 :=
  minimumf cur (select (cmpi .sge lane (broadcast S2048x128 sb))
    (broadcast S2048x128 (Scalar.ofBits .f32 0x7F800000#32 : Ideal .f32))
    (dynamicRotate 1 sb none cur rotates_S2048x128_d1))

/-- A rotation of a block along its lanes by `s < 128`, read at lane `j`, is the block at lane `(j + 128 - s) % 128`. -/
theorem rot_apply (cur : FVec Ideal S2048x128 .f32) (sb : BitVec 32) (s : Nat) (hsb : sb.toNat = s) (hs : s < 128)
    (h : S2048x128.Rotates 1 none) (p : Fin 2048) (j : Fin 128) :
    dynamicRotate 1 sb none cur h (ix2 p j) = cur (ix2 p ⟨(j.val + 128 - s) % 128, Nat.mod_lt _ (by omega)⟩) := by
  refine dynamicRotate_apply (1 : Fin 2) sb cur h (ix2 p j) _ ?_
  intro b
  match b with
  | ⟨0, _⟩ => rfl
  | ⟨1, _⟩ =>
    show (j.val + 128 - s) % 128 = (j.val + 128 - sb.toNat % 128) % 128
    rw [hsb, Nat.mod_eq_of_lt hs]

/-- A step from the left at an entry. -/
theorem pstep_apply (cur : FVec Ideal S2048x128 .f32) (sb : BitVec 32) (s : Nat) (hsb : sb.toNat = s) (hs : s < 128)
    (p : Fin 2048) (j : Fin 128) :
    pstep sb cur (ix2 p j)
      = min (cur (ix2 p j)) (if hj : j.val < s then ⊤ else cur (ix2 p ⟨j.val - s, by omega⟩)) := by
  have hj128 : j.val < 128 := j.isLt
  unfold pstep
  rw [minimumf_apply, select_apply, broadcast_apply, rot_apply cur sb s hsb hs]
  show min _ (Scalar.select (IntOp.cmpi .slt (lane (ix2 p j)) sb) _ _) = _
  rw [lane_apply, select_slt_small j.val hj128 sb s hsb hs, top_lit]
  by_cases hj : j.val < s
  · rw [if_pos hj, dif_pos hj]
  · rw [if_neg hj, dif_neg hj]
    congr 3
    refine Fin.ext ?_
    show (j.val + 128 - s) % 128 = j.val - s
    omega

/-- A step from the right at an entry: `t` is 128 minus the shift. -/
theorem sstep_apply (cur : FVec Ideal S2048x128 .f32) (sb : BitVec 32) (t : Nat) (hsb : sb.toNat = t) (ht : t < 128)
    (p : Fin 2048) (j : Fin 128) :
    sstep sb cur (ix2 p j)
      = min (cur (ix2 p j)) (if hj : t ≤ j.val then ⊤ else cur (ix2 p ⟨j.val + (128 - t), by omega⟩)) := by
  have hj128 : j.val < 128 := j.isLt
  unfold sstep
  rw [minimumf_apply, select_apply, broadcast_apply, rot_apply cur sb t hsb ht]
  show min _ (Scalar.select (IntOp.cmpi .sge (lane (ix2 p j)) sb) _ _) = _
  rw [lane_apply, select_sge_small j.val hj128 sb t hsb ht, top_lit]
  by_cases hj : t ≤ j.val
  · rw [if_pos hj, dif_pos hj]
  · rw [if_neg hj, dif_neg hj]
    congr 3
    refine Fin.ext ?_
    show (j.val + 128 - t) % 128 = j.val + (128 - t)
    omega

/-! ## Window minima -/

/-- Two adjacent windows make one. -/
theorem winInf_split (f : ℕ → EReal) (a b c : ℕ) (h1 : a ≤ b + 1) (h2 : b ≤ c) :
    min (winInf f a b) (winInf f (b + 1) c) = winInf f a c := by
  unfold winInf
  rw [← Finset.inf_union]
  congr 1
  ext x
  simp only [Finset.mem_union, Finset.mem_Icc]
  omega

/-- A window on which the function is +∞ has minimum +∞. -/
theorem winInf_top (f : ℕ → EReal) (a b : ℕ) (h : ∀ k, a ≤ k → f k = ⊤) : winInf f a b = ⊤ := by
  unfold winInf
  refine top_le_iff.mp (Finset.le_inf fun k hk => ?_)
  rw [h k (Finset.mem_Icc.mp hk).1]

/-- A window of one entry. -/
theorem winInf_self (f : ℕ → EReal) (a : ℕ) : winInf f a a = f a := by
  unfold winInf
  rw [Finset.Icc_self, Finset.inf_singleton]

/-- A row of a block is +∞ from lane 128 on. -/
theorem rowN_top {R : ℕ} (x : (⟨2, ![R, 128]⟩ : Shape).Idx → EReal) (q k : ℕ) (hk : 128 ≤ k) : rowN x q k = ⊤ := by
  unfold rowN
  rw [dif_neg (by omega)]

/-- A row of a block inside the block. -/
theorem rowN_in (x : (⟨2, ![2048, 128]⟩ : Shape).Idx → EReal) (p : Fin 2048) (j : Fin 128) :
    rowN x p.val j.val = x (ix2 p j) := by
  unfold rowN
  rw [dif_pos ⟨p.isLt, j.isLt⟩]

/-- DOUBLING FROM THE LEFT: from windows of `L` lanes ending at each lane to windows of `2 L` lanes. -/
theorem pstep_win (f : ℕ → EReal) (cur : FVec Ideal S2048x128 .f32) (sb : BitVec 32) (L : Nat) (hsb : sb.toNat = L)
    (hL0 : 0 < L) (hL : L < 128) (p : Fin 2048)
    (hcur : ∀ j : Fin 128, cur (ix2 p j) = winInf f (j.val + 1 - L) j.val) (j : Fin 128) :
    pstep sb cur (ix2 p j) = winInf f (j.val + 1 - 2 * L) j.val := by
  rw [pstep_apply cur sb L hsb hL, hcur j]
  by_cases hj : j.val < L
  · rw [dif_pos hj, min_eq_left le_top]
    congr 1
    omega
  · rw [dif_neg hj, hcur]
    show min (winInf f (j.val + 1 - L) j.val) (winInf f (j.val - L + 1 - L) (j.val - L)) = _
    rw [min_comm, show j.val + 1 - L = (j.val - L) + 1 by omega, show j.val - L + 1 - L = j.val + 1 - 2 * L by omega]
    exact winInf_split f _ _ _ (by omega) (by omega)

/-- DOUBLING FROM THE RIGHT: from windows of `L` lanes starting at each lane to windows of `2 L` lanes, for a
    function that is +∞ from lane 128 on. -/
theorem sstep_win (f : ℕ → EReal) (hf : ∀ k, 128 ≤ k → f k = ⊤) (cur : FVec Ideal S2048x128 .f32) (sb : BitVec 32)
    (L : Nat) (hsb : sb.toNat = 128 - L) (hL0 : 0 < L) (hL : L < 128) (p : Fin 2048)
    (hcur : ∀ j : Fin 128, cur (ix2 p j) = winInf f j.val (j.val + L - 1)) (j : Fin 128) :
    sstep sb cur (ix2 p j) = winInf f j.val (j.val + 2 * L - 1) := by
  have hj128 : j.val < 128 := j.isLt
  rw [sstep_apply cur sb (128 - L) hsb (by omega), hcur j]
  by_cases hj : 128 - L ≤ j.val
  · rw [dif_pos hj, ← winInf_top f (j.val + L - 1 + 1) (j.val + 2 * L - 1) (fun k hk => hf k (by omega))]
    exact winInf_split f _ _ _ (by omega) (by omega)
  · rw [dif_neg hj, hcur]
    show min (winInf f j.val (j.val + L - 1)) (winInf f (j.val + (128 - (128 - L))) (j.val + (128 - (128 - L)) + L - 1)) = _
    rw [show j.val + (128 - (128 - L)) = (j.val + L - 1) + 1 by omega,
      show j.val + L - 1 + 1 + L - 1 = j.val + 2 * L - 1 by omega]
    exact winInf_split f _ _ _ (by omega) (by omega)

end Cert.KernelIdeal.Body

end
-- ==== Proof.Scans.lean ====
/-
  The two doubling scans of a block: per row, the running minimum from the left and the running minimum from the
  right, each as seven steps with shifts 1, 2, 4, …, 64.

  After the steps with shifts 1, …, 2^(k-1) every lane j of a row holds the minimum over the 2^k lanes ending at j
  (scan from the left; the window is clipped at lane 0) resp. starting at j (scan from the right; the row counts as
  +∞ from lane 128 on).  After seven steps the windows have 128 lanes, i.e. they are [0, j] resp. [j, 127].
-/
import proofs.«168143_j80865644249734_1_alg».proof.Proof.ScanStep

noncomputable section

namespace Cert.KernelIdeal.Body

open Idealize.ShloMosaic Idealize.ShloMosaic.ValueIdx Cert.KernelIdeal Cert.KernelIdeal.Gen Cert.SlidingMin

/-- The block as loaded: the shape cast to its own shape is the identity. -/
theorem pay5_eq (x0 : Vec Ideal S2048x128 .f32) : k0_pay5 (F := Ideal) x0 = x0 :=
  shapeCast_self x0 shapeCasts_S2048x128_S2048x128

/-- The first five steps from the left. -/
theorem pay6_eq (x0 : Vec Ideal S2048x128 .f32) :
    k0_pay6 (F := Ideal) x0 = pstep 16#32 (pstep 8#32 (pstep 4#32 (pstep 2#32 (pstep 1#32 (k0_pay5 x0))))) := rfl

/-- The scan from the left is seven steps. -/
theorem prefixScan_eq (x0 : Vec Ideal S2048x128 .f32) :
    prefixScan (F := Ideal) x0 = pstep 64#32 (pstep 32#32 (k0_pay6 x0)) := rfl

/-- The first four steps from the right. -/
theorem pay9_eq (v4 : FVec Ideal S2048x128 .f32) :
    k0_pay9 (F := Ideal) v4 lane = sstep 120#32 (sstep 124#32 (sstep 126#32 (sstep 127#32 v4))) := rfl

/-- The scan from the right is seven steps. -/
theorem suffixScan_eq (x0 : Vec Ideal S2048x128 .f32) :
    suffixScan (F := Ideal) x0 = sstep 64#32 (sstep 96#32 (sstep 112#32 (k0_pay9 (k0_pay5 x0) lane))) := rfl

/-- THE SCAN FROM THE LEFT: lane `j` of row `p` holds the minimum of the row's lanes `0, …, j`. -/
theorem prefixScan_apply (x0 : Vec Ideal S2048x128 .f32) (p : Fin 2048) (j : Fin 128) :
    prefixScan (F := Ideal) x0 (ix2 p j) = winInf (rowN x0 p.val) 0 j.val := by
  have h0 : ∀ j : Fin 128, x0 (ix2 p j) = winInf (rowN x0 p.val) (j.val + 1 - 1) j.val := fun j => by
    rw [Nat.add_sub_cancel, winInf_self, rowN_in]
  have h1 := pstep_win (rowN x0 p.val) x0 1#32 1 rfl (by omega) (by omega) p h0
  have h2 := pstep_win (rowN x0 p.val) _ 2#32 2 rfl (by omega) (by omega) p h1
  have h3 := pstep_win (rowN x0 p.val) _ 4#32 4 rfl (by omega) (by omega) p h2
  have h4 := pstep_win (rowN x0 p.val) _ 8#32 8 rfl (by omega) (by omega) p h3
  have h5 := pstep_win (rowN x0 p.val) _ 16#32 16 rfl (by omega) (by omega) p h4
  have h6 := pstep_win (rowN x0 p.val) _ 32#32 32 rfl (by omega) (by omega) p h5
  have h7 := pstep_win (rowN x0 p.val) _ 64#32 64 rfl (by omega) (by omega) p h6 j
  rw [prefixScan_eq, pay6_eq, pay5_eq, h7]
  congr 1
  have := j.isLt
  omega

/-- THE SCAN FROM THE RIGHT: lane `j` of row `p` holds the minimum of the row's lanes `j, …, 127`. -/
theorem suffixScan_apply (x0 : Vec Ideal S2048x128 .f32) (p : Fin 2048) (j : Fin 128) :
    suffixScan (F := Ideal) x0 (ix2 p j) = winInf (rowN x0 p.val) j.val 127 := by
  have hf : ∀ k, 128 ≤ k → rowN x0 p.val k = ⊤ := fun k hk => rowN_top x0 p.val k hk
  have h0 : ∀ j : Fin 128, x0 (ix2 p j) = winInf (rowN x0 p.val) j.val (j.val + 1 - 1) := fun j => by
    rw [Nat.add_sub_cancel, winInf_self, rowN_in]
  have h1 := sstep_win (rowN x0 p.val) hf x0 127#32 1 rfl (by omega) (by omega) p h0
  have h2 := sstep_win (rowN x0 p.val) hf _ 126#32 2 rfl (by omega) (by omega) p h1
  have h3 := sstep_win (rowN x0 p.val) hf _ 124#32 4 rfl (by omega) (by omega) p h2
  have h4 := sstep_win (rowN x0 p.val) hf _ 120#32 8 rfl (by omega) (by omega) p h3
  have h5 := sstep_win (rowN x0 p.val) hf _ 112#32 16 rfl (by omega) (by omega) p h4
  have h6 := sstep_win (rowN x0 p.val) hf _ 96#32 32 rfl (by omega) (by omega) p h5
  have h7 := sstep_win (rowN x0 p.val) hf _ 64#32 64 rfl (by omega) (by omega) p h6 j
  rw [suffixScan_eq, pay9_eq, pay5_eq, h7]
  have hj := j.isLt
  rw [← winInf_split (rowN x0 p.val) j.val 127 (j.val + 2 * 64 - 1) (by omega) (by omega),
    winInf_top (rowN x0 p.val) (127 + 1) _ (fun k hk => hf k (by omega)), min_eq_left le_top]

end Cert.KernelIdeal.Body

end
-- ==== Proof.Combine.lean ====
/-
  The last steps of the body: the two running minima of a block are combined with the row carried over from the block
  before.

  Entry (p, j) of the output block is the minimum of two pieces of the window that ends at column j of row p.  The piece
  inside row p is the head of that row up to column j: the running minimum from the left.  The piece before row p is the
  tail, from column j + 1 on, of the row above: for p ≥ 1 that is the running minimum from the right of row p - 1, read one
  column further (a rotation by one row brings row p - 1 to row p, a rotation by 127 lanes brings column j + 1 to column
  j); for p = 0 the row above belongs to the previous block and its tails are the carried row.  In the last column the
  tail is empty and the first piece is +∞.  The row carried to the next block is the last row of the running minimum
  from the right, and the row the very first block starts from is constant +∞.
-/
import proofs.«168143_j80865644249734_1_alg».proof.Proof.Spec
import proofs.«168143_j80865644249734_1_alg».proof.Proof.Body
import Idealize.ShloMosaic.Lib.ValueIdx
import Idealize.ShloMosaic.Lib.Pipeline.Value
import Idealize.ShloMosaic.Lib.KernelVsHost

noncomputable section

namespace Cert.KernelIdeal.Body

open Idealize.ShloMosaic Idealize.ShloMosaic.ValueIdx Cert.KernelIdeal Cert.KernelIdeal.Gen Cert.SlidingMin

/-- The word 0x7F800000 is +∞. -/
theorem inf_lit : (Scalar.ofBits .f32 0x7F800000#32 : Ideal .f32) = ⊤ := by
  show Ideal.ofBits .f32 0x7F800000#32 = ⊤
  simp [Ideal.ofBits, Ideal.ieee]

/-- A select on the equality of two words is the case distinction on that equality. -/
theorem select_cmpi_eq {α : Type} {w : Nat} (x y : BitVec w) (a b : α) :
    Scalar.select (IntOp.cmpi .eq x y) a b = if x = y then a else b := by
  show (if BitVec.ofBool (x == y) = 1#1 then a else b) = if x = y then a else b
  by_cases h : x = y
  · subst h; simp
  · have hb : (x == y) = false := by simpa using h
    rw [hb, if_neg h]
    exact if_neg (by decide)

/-- Two numbers below 2 ^ 32 give the same 32-bit word only when they are equal. -/
theorem ofNat32_eq_iff (a b : ℕ) (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat] at h'
    omega
  · intro h; rw [h]

/-- The row every first block starts from is constant +∞. -/
theorem k0_pay4_apply (j : Fin 128) : k0_pay4 (F := Ideal) (ix2 (0 : Fin 1) j) = ⊤ := by
  unfold k0_pay4
  show shapeCast S1x128 (broadcast S1x128 (Scalar.ofBits .f32 0x7F800000#32 : Ideal .f32)) shapeCasts_S1x128_S1x128
    (ix2 (0 : Fin 1) j) = ⊤
  rw [shapeCast_self]
  exact inf_lit

/-- The row carried to the next block: the last row of the running minimum from the right. -/
theorem carryPay_apply_of (x0 : Vec Ideal S2048x128 .f32)
    (hsuf : ∀ (p : Fin 2048) (j : Fin 128), suffixScan (F := Ideal) x0 (ix2 p j) = winInf (rowN x0 p.val) j.val 127)
    (j : Fin 128) :
    carryPay (F := Ideal) x0 (ix2 (0 : Fin 1) j) = winInf (rowN x0 2047) j.val 127 := by
  unfold carryPay k0_pay3
  show shapeCast S1x128 (extractStridedSlice S1x128 ![2047, 0] (suffixScan (F := Ideal) x0) slices_S2048x128_o2047_0_S1x128)
    shapeCasts_S1x128_S1x128 (ix2 (0 : Fin 1) j) = _
  rw [shapeCast_self]
  refine (extractStridedSlice_apply _ _ _ _ (ix2 (⟨2047, by decide⟩ : Fin 2048) j) fun a => ?_).trans ?_
  · match a with
    | ⟨0, _⟩ => rfl
    | ⟨1, _⟩ => show j.val = 0 + j.val; omega
  · exact hsuf ⟨2047, by decide⟩ j

/-- The piece above row p before the lane steps: the carried row for p = 0, and otherwise the running minimum from the
    right of row p - 1 (a rotation by one row). -/
theorem above_apply (x0 : Vec Ideal S2048x128 .f32) (xs : Vec Ideal S1x128 .f32) (p : Fin 2048) (j : Fin 128) :
    select (cmpi .eq rowIx (broadcast S2048x128 0#32))
        (broadcastTo S2048x128 (shapeCast S1x128 xs shapeCasts_S1x128_S1x128) broadcasts_S1x128_S2048x128)
        (dynamicRotate 0 1#32 none (suffixScan (F := Ideal) x0) rotates_S2048x128_d0) (ix2 p j)
      = if p.val = 0 then xs (ix2 (0 : Fin 1) j)
        else suffixScan (F := Ideal) x0 (ix2 (⟨p.val - 1, by omega⟩ : Fin 2048) j) := by
  rw [select_apply]
  show Scalar.select (IntOp.cmpi .eq (rowIx (ix2 p j)) 0#32) _ _ = _
  rw [show rowIx (ix2 p j) = BitVec.ofNat 32 p.val from iota_single_apply _ _ _ _ _ _, select_cmpi_eq, shapeCast_self]
  have h0 : BitVec.ofNat 32 p.val = 0#32 ↔ p.val = 0 := ofNat32_eq_iff p.val 0 (by omega) (by omega)
  by_cases hp : p.val = 0
  · rw [if_pos (h0.mpr hp), if_pos hp]
    exact broadcastTo_apply _ _ _ _ fun a => match a with
      | ⟨0, _⟩ => rfl
      | ⟨1, _⟩ => rfl
  · rw [if_neg (mt h0.mp hp), if_neg hp]
    exact dynamicRotate_apply _ _ _ _ _ _ fun b => match b with
      | ⟨0, _⟩ => by
        show p.val - 1 = (p.val + 2048 - 1 % 2048) % 2048
        omega
      | ⟨1, _⟩ => rfl

/-- The output block: entry (p, j) is the minimum of the tail from column j + 1 of the row above (the carried row for
    the block's first row) and the head up to column j of row p. -/
theorem outPay_apply_of (x0 : Vec Ideal S2048x128 .f32) (xs : Vec Ideal S1x128 .f32)
    (hpre : ∀ (p : Fin 2048) (j : Fin 128), prefixScan (F := Ideal) x0 (ix2 p j) = winInf (rowN x0 p.val) 0 j.val)
    (hsuf : ∀ (p : Fin 2048) (j : Fin 128), suffixScan (F := Ideal) x0 (ix2 p j) = winInf (rowN x0 p.val) j.val 127)
    (p : Fin 2048) (j : Fin 128) :
    outPay (F := Ideal) x0 xs (ix2 p j)
      = min (if p.val = 0 then rowN xs 0 (j.val + 1) else winInf (rowN x0 (p.val - 1)) (j.val + 1) 127)
          (winInf (rowN x0 p.val) 0 j.val) := by
  unfold outPay k0_pay2
  show min (Scalar.select (IntOp.cmpi .eq (lane (ix2 p j)) 127#32) (Scalar.ofBits .f32 0x7F800000#32 : Ideal .f32)
      (dynamicRotate 1 127#32 none
        (select (cmpi .eq rowIx (broadcast S2048x128 0#32))
          (broadcastTo S2048x128 (shapeCast S1x128 xs shapeCasts_S1x128_S1x128) broadcasts_S1x128_S2048x128)
          (dynamicRotate 0 1#32 none (suffixScan (F := Ideal) x0) rotates_S2048x128_d0))
        rotates_S2048x128_d1 (ix2 p j)))
    (prefixScan (F := Ideal) x0 (ix2 p j)) = _
  rw [hpre p j, inf_lit, show lane (ix2 p j) = BitVec.ofNat 32 j.val from iota_single_apply _ _ _ _ _ _, select_cmpi_eq]
  congr 1
  have h127 : BitVec.ofNat 32 j.val = 127#32 ↔ j.val = 127 := ofNat32_eq_iff j.val 127 (by omega) (by omega)
  by_cases hj : j.val = 127
  · -- the last column: no tail
    rw [if_pos (h127.mpr hj), hj]
    by_cases hp : p.val = 0
    · rw [if_pos hp]
      unfold rowN
      rw [dif_neg (by omega)]
    · rw [if_neg hp]
      unfold winInf
      rw [Finset.Icc_eq_empty (by omega), Finset.inf_empty]
  · -- column j + 1 of the row above
    rw [if_neg (mt h127.mp hj)]
    have hj1 : j.val + 1 < 128 := by omega
    refine (dynamicRotate_apply 1 127#32 _ _ (ix2 p j) (ix2 p (⟨j.val + 1, hj1⟩ : Fin 128)) fun b => match b with
      | ⟨0, _⟩ => rfl
      | ⟨1, _⟩ => by
        show j.val + 1 = (j.val + 128 - 127 % 128) % 128
        omega).trans ?_
    rw [above_apply]
    by_cases hp : p.val = 0
    · rw [if_pos hp, if_pos hp]
      unfold rowN
      rw [dif_pos ⟨by omega, hj1⟩]
      rfl
    · rw [if_neg hp, if_neg hp]
      exact hsuf ⟨p.val - 1, by omega⟩ ⟨j.val + 1, hj1⟩

end Cert.KernelIdeal.Body

end
-- ==== Proof.BlockValue.lean ====
/-
  The kernel's result as one function of its argument.

  The grid runs over 32 blocks of 2048 rows of 128 lanes; one row of 128 lanes (the running minima, from the right, of
  the tails of the previous block's last row) is carried from each point to the next, +∞ before the first.  By
  induction on the point, the output block written at point `n` holds at row `p`, lane `j` the minimum of the tail
  of row `2048 n + p - 1` from lane `j + 1` on and of the head of row `2048 n + p` up to lane `j` — for `p = 0`
  the previous row is the last row of the block before, which is what the carried row remembers.  The 32 blocks tile
  the array, so the array ends holding that function of (row, lane) everywhere; read back as a vector of 8388608
  entries, row `q`, lane `j` is position `128 q + j`, and the two pieces together are exactly the 128 positions
  ending there (fewer at the very front): the causal window minimum of width 128.
-/
import proofs.«168143_j80865644249734_1_alg».proof.Proof.Pieces
import proofs.«168143_j80865644249734_1_alg».proof.Proof.Spec
import proofs.«168143_j80865644249734_1_alg».proof.Proof.LibWindowMin
import proofs.«168143_j80865644249734_1_alg».proof.Proof.Scans
import proofs.«168143_j80865644249734_1_alg».proof.Proof.Combine
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Carry

open Cert.KernelIdeal Cert.KernelIdeal.Gen Cert.KernelIdeal.Body Cert.KernelIdeal.Pieces

variable {F : FTy → Type} [FloatOps F]
variable (m : (ℓ : Loc nD τ sig) → Buf (Elt F) ℓ) (ρ : Dev nD → PrngReg)

/-- The carried row as the body finds it at point `n`: the +∞ row at the first point, afterwards the last row's
    right scan of the block before. -/
def carryIn (c : Dev nD) : (n : ℕ) → n < cfg0.N → Vec F S1x128 .f32
  | 0, _ => k0_pay4
  | n + 1, h => carryPay (iblk m c 0 ⟨n, Nat.lt_of_succ_lt h⟩)

/-- After point `n` the output's staging buffer holds the body's output value of block `n` and of the carried
    row as found, and the carried row holds the last row's right scan of block `n`: by induction on the point. -/
theorem outsAt_eq (c : Dev nD) : ∀ (n : ℕ) (h : n < cfg0.N),
    outsAt0 m c n h = (outPay (iblk m c 0 ⟨n, h⟩) (carryIn m c n h), carryPay (iblk m c 0 ⟨n, h⟩))
  | 0, h => by
    rw [outsAt0_A m c ⟨0, h⟩ rfl, out_A, sout_A]; rfl
  | n + 1, h => by
    have hN : cfg0.N = 32 := N_0
    have hB : ¬(⟨n + 1, h⟩ : Fin cfg0.N).val % 32 = 0 := by dsimp only; omega
    rw [outsAt0_B m c ⟨n + 1, h⟩ hB, out_B, sout_B]
    show (outPay _ (outsAt0 m c n _).2, _) = _
    rw [outsAt_eq c n]
    rfl

/-! ## Blocks of the input array -/

/-- The printed index maps, decided over the grid: at point `t` both windows sit at block row `t`, block column 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry `(p, j)` of the input block at point `t` is entry `(2048 t + p, j)` of the array the region finds. -/
theorem iblk_apply (c : Dev nD) (t : Fin cfg0.N) (p : Fin 2048) (j : Fin 128) (hq : 2048 * t.val + p.val < 65536) :
    iblk m c 0 t (ix2 p j) = V m c main_v0 (ix2 ⟨2048 * t.val + p.val, hq⟩ j) := by
  obtain ⟨e0, e1, -, -⟩ := idx_facts t
  unfold iblk
  rw [View.read_apply]
  show V m c main_v0 _ = V m c main_v0 _
  refine congrArg (V m c main_v0) ?_
  funext a; apply Fin.ext
  match a with
  | ⟨0, _⟩ => show win0_0.index t (0 : Fin 2) * 2048 + 1 * p.val = 2048 * t.val + p.val; rw [e0]; omega
  | ⟨1, _⟩ => show win0_0.index t (1 : Fin 2) * 128 + 1 * j.val = j.val; rw [e1]; omega

/-! ## The values at the ideal instance -/

section AtIdeal

open Cert.SlidingMin

variable (mI : (ℓ : Loc nD τ sig) → Buf (Elt Ideal) ℓ)

/-- The input array as the region finds it, 65536 rows of 128, read at natural coordinates (`⊤` outside). -/
def X (c : Dev nD) : ℕ → ℕ → EReal := rowN (V mI c main_v0 : S65536x128.Idx → EReal)

/-- Row `p` of the block at point `t` is row `2048 t + p` of the array. -/
theorem rowN_iblk (c : Dev nD) (t : Fin cfg0.N) (p : ℕ) (hp : p < 2048) :
    rowN (iblk mI c 0 t : Vec Ideal S2048x128 .f32) p = X mI c (2048 * t.val + p) := by
  have hN : cfg0.N = 32 := N_0
  have ht : t.val < 32 := lt_of_lt_of_eq t.isLt hN
  have hq : 2048 * t.val + p < 65536 := by omega
  funext k
  unfold X rowN
  by_cases hk : k < 128
  · rw [dif_pos ⟨hp, hk⟩, dif_pos ⟨hq, hk⟩]
    exact iblk_apply mI c t ⟨p, hp⟩ ⟨k, hk⟩ hq
  · rw [dif_neg (fun h => hk h.2), dif_neg (fun h => hk h.2)]

/-- THE BLOCKS' VALUES: after point `n`, entry `(p, j)` of the output's staging buffer is the window minimum at
    row `2048 n + p`, column `j`, of the array in rows of 128. -/
theorem out_apply (c : Dev nD) (n : ℕ) (h : n < cfg0.N) (p : Fin 2048) (j : Fin 128) :
    (outsAt0 mI c n h).1 (ix2 p j) = H (X mI c) (2048 * n + p.val) j.val := by
  have hN : cfg0.N = 32 := N_0
  have hp : p.val < 2048 := p.isLt
  rw [outsAt_eq]
  show outPay (F := Ideal) (iblk mI c 0 ⟨n, h⟩) (carryIn mI c n h) (ix2 p j) = _
  rw [outPay_apply_of _ _ (prefixScan_apply _) (suffixScan_apply _)]
  unfold H
  rw [rowN_iblk mI c ⟨n, h⟩ p.val hp]
  refine congrArg (fun z => min z _) ?_
  by_cases hp0 : p.val = 0
  · rw [if_pos hp0]
    cases n with
    | zero =>
      rw [if_pos (by omega)]
      unfold carryIn rowN
      by_cases hj : j.val + 1 < 128
      · rw [dif_pos ⟨Nat.zero_lt_one, hj⟩]; exact k0_pay4_apply ⟨j.val + 1, hj⟩
      · rw [dif_neg (fun h => hj h.2)]
    | succ n' =>
      rw [if_neg (by omega)]
      have e : 2048 * (n' + 1) + p.val - 1 = 2048 * n' + 2047 := by omega
      rw [e]
      unfold carryIn rowN
      by_cases hj : j.val + 1 < 128
      · rw [dif_pos ⟨Nat.zero_lt_one, hj⟩]
        refine (carryPay_apply_of (iblk mI c 0 ⟨n', Nat.lt_of_succ_lt h⟩) (suffixScan_apply _) ⟨j.val + 1, hj⟩).trans ?_
        rw [rowN_iblk mI c ⟨n', Nat.lt_of_succ_lt h⟩ 2047 (by omega)]
      · rw [dif_neg (fun h => hj h.2)]
        exact (winInf_empty _ _ _ (by omega)).symm
  · rw [if_neg hp0, if_neg (by omega), rowN_iblk mI c ⟨n, h⟩ (p.val - 1) (by omega)]
    have e : 2048 * n + p.val - 1 = 2048 * n + (p.val - 1) := by omega
    rw [e]

/-! ## From blocks to the array -/

/-- The output array in rows of 128: entry `(q, j)` is the window minimum there. -/
def Y (c : Dev nD) : S65536x128.Idx → EReal := fun i => H (X mI c) (i 0).val (i 1).val

/-- WHAT POINT `t` WRITES BACK is block `t` of `Y`. -/
theorem flushed_eq (c : Dev nD) (t : Fin cfg0.N) :
    (dats mI 0 c).flushed 1 t = ((cfg0.win 1).blk t).view.read (Elt Ideal) (Y mI c) := by
  obtain ⟨-, -, e0, e1⟩ := idx_facts t
  show (cfg0.win 1).cut (grid0.coords t) ((dats mI 0 c).after 1 t) = _
  rw [after0_1]
  funext y
  obtain ⟨p, j, rfl⟩ : ∃ (p : Fin 2048) (j : Fin 128), y = ix2 p j := ⟨y 0, y 1, eq_ix2 y⟩
  show (outsAt0 mI c t.val t.isLt).1 (ix2 p j) = Y mI c (((cfg0.win 1).blk t).view.emb (ix2 p j))
  rw [out_apply mI]
  unfold Y
  have h0 : ((((cfg0.win 1).blk t).view.emb (ix2 p j)) 0).val = 2048 * t.val + p.val := by
    show win0_1.index t (0 : Fin 2) * 2048 + 1 * p.val = _; rw [e0]; omega
  have h1 : ((((cfg0.win 1).blk t).view.emb (ix2 p j)) 1).val = j.val := by
    show win0_1.index t (1 : Fin 2) * 128 + 1 * j.val = _; rw [e1]; omega
  rw [h0, h1]

/-- Every index of the array lies in the block of the point that owns its row: `(i 0) / 2048`. -/
theorem covered (c : Dev nD) (i : S65536x128.Idx) :
    ∃ t : Fin cfg0.N, (cfg0.win 1).flush t = true ∧ i ∈ ((cfg0.win 1).blk t).view.set := by
  have hN : cfg0.N = 32 := N_0
  have hi0 : (i 0).val < 65536 := (i 0).isLt
  have hi1 : (i 1).val < 128 := (i 1).isLt
  obtain ⟨t, ht⟩ : ∃ t : Fin cfg0.N, t.val = (i 0).val / 2048 := ⟨⟨(i 0).val / 2048, by rw [hN]; omega⟩, rfl⟩
  refine ⟨t, flush0_1 t, ?_⟩
  obtain ⟨-, -, e0, e1⟩ := idx_facts t
  show i ∈ ((View.whole main_v1).slice (win0_1.rect t)).set
  rw [View.set_slice_whole, Rect.mem_set_unit]
  intro a
  match a with
  | ⟨0, _⟩ =>
    show win0_1.index t (0 : Fin 2) * 2048 ≤ (i 0).val ∧ (i 0).val < win0_1.index t (0 : Fin 2) * 2048 + 2048
    rw [e0, ht]; omega
  | ⟨1, _⟩ =>
    show win0_1.index t (1 : Fin 2) * 128 ≤ (i 1).val ∧ (i 1).val < win0_1.index t (1 : Fin 2) * 128 + 128
    rw [e1]; omega

/-- THE ARRAY after the region: `Y`. -/
theorem final (c : Dev nD) : (dats mI 0 c).arrAt 1 cfg0.N = Y mI c :=
  (dats mI 0 c).arrAt_eq_of_cover 1 (Y mI c) (fun t _ => flushed_eq mI c t) (covered c)

/-! ## The array the region finds, and the result after the last reshape -/

/-- The array the region finds is the argument laid out in rows of 128. -/
theorem V_main_v0 (c : Dev nD) (h : S8388608.ShapeCasts S65536x128) :
    (V mI c main_v0 : S65536x128.Idx → EReal) = shapeCast S65536x128 (mI ((c : Thread nD τ).loc main_arg0)) h := by
  show StableHlo.after hostOps0 (fun b => mI (c, b)) (Proc.devRef .tc main_v0) = _
  after_results
  rfl

/-- Row `q`, column `k` of it is entry `128 q + k` of the argument. -/
theorem X_eq_flat (c : Dev nD) (q k : ℕ) (hk : k < 128) :
    X mI c q k = flat (mI ((c : Thread nD τ).loc main_arg0)) (128 * q + k) := by
  unfold X rowN flat
  by_cases hq : q < 65536
  · rw [dif_pos ⟨hq, hk⟩, dif_pos (by omega), V_main_v0 mI c shapeCasts_S8388608_S65536x128]
    refine shapeCast_apply (s := S8388608) (t := S65536x128) _ _ _ _ ?_
    show ((⟨1, ![8388608]⟩ : Shape).rowMajor (ix1 (⟨128 * q + k, _⟩ : Fin 8388608))).val
      = ((⟨2, ![65536, 128]⟩ : Shape).rowMajor (ix2 (⟨q, _⟩ : Fin 65536) (⟨k, _⟩ : Fin 128))).val
    rw [Shape.rowMajor_val_one, Shape.rowMajor_val_two]
    show 128 * q + k = q * 128 + k
    omega
  · rw [dif_neg (fun h => hq h.1), dif_neg (by omega)]

/-- The output array read back as a vector is the specification of the argument: position `a` sits at row
    `a / 128`, column `a % 128`, and the row form of the window minimum is the flat one. -/
theorem result_eq (c : Dev nD) (h : S65536x128.ShapeCasts S8388608) :
    shapeCast S8388608 (Y mI c) h = G (mI ((c : Thread nD τ).loc main_arg0)) := by
  funext i
  obtain ⟨a, rfl⟩ : ∃ a : Fin 8388608, i = ix1 a := ⟨i 0, eq_ix1 i⟩
  have ha : a.val < 8388608 := a.isLt
  refine (shapeCast_apply (Y mI c) h (ix1 a) (ix2 ⟨a.val / 128, by omega⟩ ⟨a.val % 128, Nat.mod_lt _ (by norm_num)⟩) ?_).trans ?_
  · show ((⟨2, ![65536, 128]⟩ : Shape).rowMajor (ix2 (⟨a.val / 128, _⟩ : Fin 65536) (⟨a.val % 128, _⟩ : Fin 128))).val
      = ((⟨1, ![8388608]⟩ : Shape).rowMajor (ix1 a)).val
    rw [Shape.rowMajor_val_one, Shape.rowMajor_val_two]
    show a.val / 128 * 128 + a.val % 128 = a.val
    omega
  · show H (X mI c) (a.val / 128) (a.val % 128) = winInf (flat _) (a.val - 127) a.val
    rw [H_eq_flat (flat (mI ((c : Thread nD τ).loc main_arg0))) (X mI c) (fun q k hk => X_eq_flat mI c q k hk) _ _
      (Nat.mod_lt _ (by norm_num))]
    have e : 128 * (a.val / 128) + a.val % 128 = a.val := by omega
    rw [e]

/-- What the line after the region leaves in the result buffer: the output array reshaped. -/
theorem tail_eq (c : Dev nD) (h : S65536x128.ShapeCasts S8388608) :
    Pipeline.afterTail₀ cfgs (dats mI) 0 (V0 mI) [hostOps1] c main_v2 = shapeCast S8388608 (Y mI c) h := by
  unfold Pipeline.afterTail₀
  show StableHlo.after hostOps1 _ (Proc.devRef .tc main_v2) = _
  after_results
  rw [Pipeline.withArrays_arr spec0 launch0.win.arr_inj c _ _ 1, final mI c]
  rfl

/-- THE KERNEL'S RUN, READ: the result is the window minimum of the argument, the argument unchanged. -/
theorem run (ρ : Dev nD → PrngReg) :
    θ_run defs (onTc (τ := τ) (main (F := Ideal))) ⟨mI, fun _ => 0, ρ⟩ fun r => ∀ c : Dev nD,
      r.2.mem ((c.tc : Thread nD τ).loc main_v2) = G (mI ((c.tc : Thread nD τ).loc main_arg0))
      ∧ r.2.mem ((c.tc : Thread nD τ).loc main_arg0) = mI ((c.tc : Thread nD τ).loc main_arg0) :=
  (θ_run defs _ _).mono (fun r h c =>
    ⟨((h c).2 main_v2 (Pipeline.mem_restRefs_of main_v2 (by decide) (by decide))).trans
        ((tail_eq mI c shapeCasts_S65536x128_S8388608).trans (result_eq mI c _)),
      ((h c).2 main_arg0 (Pipeline.mem_restRefs_of main_arg0 (by decide) (by decide))).trans (W_main_arg0 mI (dats mI) c)⟩)
    (run_main mI ρ)

end AtIdeal

end Cert.KernelIdeal.Carry

end
-- ==== Proof.LibReduceWindow.lean ====
/-
  A window reduction of a sequence, read at one index.

  The host's window reduction of a rank-one array with stride one and no padding computes, at index k, the left fold
  of its operation, from the initial value, over the w entries k, k + 1, …, k + w - 1 of the operand in order; a
  position past the end of the operand contributes the initial value.  The lemma below states this over a fold on the
  naturals, so that the window's positions are plain numbers `k + n`.
-/
import Idealize.ShloMosaic.PureOps.Contract
import Idealize.ShloMosaic.Lib.ValueIdx

noncomputable section

namespace Cert.SlidingMin

open Idealize.ShloMosaic Idealize.ShloMosaic.ValueIdx

/-- A left fold over `Fin n` whose step only uses the value of the index is the fold over `0, …, n - 1`. -/
theorem foldl_finRange_val {α : Type} (g : α → ℕ → α) (r : α) (n : ℕ) :
    (List.finRange n).foldl (fun r (k : Fin n) => g r k.val) r = (List.range n).foldl g r := by
  rw [← List.map_coe_finRange_eq_range, List.foldl_map]

/-- A window reduction of a sequence (rank one, stride one, no padding), read at one index: the left fold of the
    operation, from the initial value, over the `w` entries that start at the index; a position past the end of the
    sequence contributes the initial value. -/
theorem reduceWindow_rank1_apply {α : Type} {N M w : ℕ} {u : Shape} (f : α → α → α)
    (x : (⟨1, ![N]⟩ : Shape).Idx → α) (init : u.Idx → α)
    (h : (⟨1, ![N]⟩ : Shape).ReduceWindows ![w] ![1] ![0] ![0] ⟨1, ![M]⟩) (hu : 0 < u.numel) (k : Fin M) :
    Host.reduceWindow f ![w] ![1] ![0] ![0] x init h hu (ix1 k)
      = (List.range w).foldl (fun r n => f r (if hin : k.val + n < N then x (ix1 ⟨k.val + n, hin⟩)
          else init (Shape.Idx.first hu))) (init (Shape.Idx.first hu)) := by
  have hW : (⟨1, ![w]⟩ : Shape).numel = w := by simp [Shape.numel]
  unfold Host.reduceWindow
  dsimp only
  let g : α → ℕ → α := fun r n =>
    f r (if hin : k.val + n < N then x (ix1 ⟨k.val + n, hin⟩) else init (Shape.Idx.first hu))
  refine Eq.trans
    (congrArg (fun F => List.foldl F (init (Shape.Idx.first hu)) (List.finRange (⟨1, ![w]⟩ : Shape).numel))
      (funext fun r => funext fun n => (?_ : _ = g r n.val)))
    (by rw [foldl_finRange_val g, hW])
  -- the one coordinate of the position of the window's n-th entry is n
  have hn : ((⟨1, ![w]⟩ : Shape).rowMajor.symm n 0).val = n.val := by
    have e := Shape.rowMajor_val_one ((⟨1, ![w]⟩ : Shape).rowMajor.symm n)
    rw [Equiv.apply_symm_apply] at e
    exact e.symm
  show f r _ = f r _
  congr 1
  by_cases hlt : k.val + n.val < N
  · have hin : ∀ (a : Fin 1),
        ![0] a ≤ (ix1 k (Fin.cast h.1.symm a)).val * ![1] a + ((⟨1, ![w]⟩ : Shape).rowMajor.symm n a).val ∧
          (ix1 k (Fin.cast h.1.symm a)).val * ![1] a + ((⟨1, ![w]⟩ : Shape).rowMajor.symm n a).val - ![0] a < ![N] a := by
      intro a
      match a with
      | ⟨0, _⟩ =>
        show 0 ≤ k.val * 1 + ((⟨1, ![w]⟩ : Shape).rowMajor.symm n 0).val ∧
          k.val * 1 + ((⟨1, ![w]⟩ : Shape).rowMajor.symm n 0).val - 0 < N
        rw [hn]; omega
    rw [dif_pos hin, dif_pos hlt]
    congr 1
    funext a
    match a with
    | ⟨0, _⟩ =>
      apply Fin.ext
      show k.val * 1 + ((⟨1, ![w]⟩ : Shape).rowMajor.symm n 0).val - 0 = k.val + n.val
      rw [hn]; omega
  · have hin : ¬ ∀ (a : Fin 1),
        ![0] a ≤ (ix1 k (Fin.cast h.1.symm a)).val * ![1] a + ((⟨1, ![w]⟩ : Shape).rowMajor.symm n a).val ∧
          (ix1 k (Fin.cast h.1.symm a)).val * ![1] a + ((⟨1, ![w]⟩ : Shape).rowMajor.symm n a).val - ![0] a < ![N] a := by
      intro hall
      have h0 := (hall 0).2
      have h0' : k.val * 1 + ((⟨1, ![w]⟩ : Shape).rowMajor.symm n 0).val - 0 < N := h0
      rw [hn] at h0'; omega
    rw [dif_neg hin, dif_neg hlt]

end Cert.SlidingMin

end
-- ==== Proof.RefRead.lean ====
/-
  The reference program as one function of its input: it is the sliding-window minimum of the specification.

  The reference pads the input with 127 copies of +∞ on the left and folds `min`, from +∞, over every window of 128
  consecutive entries of the padded sequence.  Entry q of the padded sequence is +∞ for q < 127 and entry q - 127 of
  the input otherwise; so the window that starts at position i of the padded sequence holds the input entries
  i - 127, …, i, clipped at the front of the sequence, where the padding only contributes the neutral element +∞.
-/
import proofs.«168143_j80865644249734_1_alg».proof.Proof.Gen.ReferenceIdeal.Read
import proofs.«168143_j80865644249734_1_alg».proof.Proof.Spec
import proofs.«168143_j80865644249734_1_alg».proof.Proof.LibWindowMin
import proofs.«168143_j80865644249734_1_alg».proof.Proof.LibReduceWindow

noncomputable section

namespace Cert.ReferenceIdeal.RefValue

open Cert.ReferenceIdeal Cert.ReferenceIdeal.Gen Cert.ReferenceIdeal.Read Idealize.ShloMosaic
  Idealize.ShloMosaic.ValueIdx Cert.SlidingMin

/-- The padded sequence as a function on the naturals: `⊤` on the 127 padding positions, then the input. -/
def pad (x : (⟨1, ![8388608]⟩ : Shape).Idx → EReal) (q : ℕ) : EReal :=
  if 127 ≤ q then flat x (q - 127) else ⊤

/-- The bit pattern of +∞ denotes the top element. -/
theorem inf_const : FloatOps.ofBits (F := Ideal) .f32 0x7F800000#32 = (⊤ : EReal) := by
  simp [Ideal.ofBits, Ideal.ieee]

/-- The padded array at position `q`: the padding below 127, the input entry `q - 127` from there on. -/
theorem val_main_v1_apply (x : (⟨S8388608, .f32⟩ : BufTy).Contents (Elt Ideal)) (q : Fin 8388735) :
    val_main_v1 (F := Ideal) x (ix1 q) = pad x q.val := by
  unfold val_main_v1 pad
  by_cases hq : 127 ≤ q.val
  · rw [if_pos hq]
    have hlt : q.val - 127 < 8388608 := by have := q.isLt; omega
    refine (concatenate_pair_apply_right (t := S8388735) (s₁ := S127) (s₂ := S8388608) (0 : Fin S8388735.rank)
      _ _ _ (ix1 q) rfl rfl (ix1 ⟨q.val - 127, hlt⟩) ?_ ?_).trans ?_
    · intro b hb
      exfalso; apply hb
      match b with
      | ⟨0, _⟩ => rfl
    · show q.val - 127 + 127 = q.val
      omega
    · unfold flat; rw [dif_pos hlt]
  · rw [if_neg hq]
    have hlt : q.val < 127 := by omega
    refine (concatenate_pair_apply_left (t := S8388735) (s₁ := S127) (s₂ := S8388608) (0 : Fin S8388735.rank)
      _ _ _ (ix1 q) rfl (ix1 ⟨q.val, hlt⟩) ?_).trans ?_
    · intro b
      match b with
      | ⟨0, _⟩ => rfl
    · rw [val_main_v0_apply, val_main_cst_apply]; exact inf_const

/-- The initial value of the window reduction is `⊤`. -/
theorem val_main_v2_top (i : S_.Idx) : val_main_v2 (F := Ideal) i = (⊤ : EReal) := by
  rw [val_main_v2_apply, val_main_cst_0_apply]; exact inf_const

/-- Past the padding, an interval of the padded sequence is the interval of the input 127 places to the left. -/
theorem winInf_pad_shift (x : (⟨1, ![8388608]⟩ : Shape).Idx → EReal) (a b : ℕ) :
    winInf (pad x) (127 + a) (127 + b) = winInf (flat x) a b := by
  rw [← winInf_shift (pad x) 127 a b]
  refine winInf_congr _ _ a b ?_
  intro k _ _
  show pad x (127 + k) = flat x k
  unfold pad
  rw [if_pos (by omega)]
  congr 1
  omega

/-- The window of 128 padded entries starting at `i` is the window of (up to) 128 input entries ending at `i`:
    for `i < 127` the first `127 - i` entries of the window are padding, which does not change a minimum. -/
theorem winInf_pad (x : (⟨1, ![8388608]⟩ : Shape).Idx → EReal) (i : ℕ) :
    winInf (pad x) i (i + 127) = winInf (flat x) (i - 127) i := by
  by_cases hi : 127 ≤ i
  · obtain ⟨m, rfl⟩ : ∃ m, i = 127 + m := ⟨i - 127, by omega⟩
    have e1 : 127 + m + 127 = 127 + (m + 127) := by omega
    have e2 : 127 + m - 127 = m := by omega
    have e3 : 127 + m = m + 127 := by omega
    rw [e1, winInf_pad_shift, e2, e3]
  · have hlo : winInf (pad x) i 126 = ⊤ := by
      unfold winInf
      refine top_unique (Finset.le_inf ?_)
      intro k hk
      rw [Finset.mem_Icc] at hk
      unfold pad
      rw [if_neg (by omega)]
    have e0 : i - 127 = 0 := by omega
    have e4 : i + 127 = 127 + i := by omega
    rw [winInf_split (pad x) i 126 (i + 127) (by omega) (by omega), hlo, min_eq_right le_top, e0, e4]
    exact winInf_pad_shift x 0 i

/-- THE REFERENCE IS THE SPECIFICATION: the reference program's result is the sliding-window minimum of its input. -/
theorem ref_eq (x : (⟨Cert.ReferenceIdeal.S8388608, .f32⟩ : BufTy).Contents (Elt Ideal)) :
    Cert.ReferenceIdeal.Read.val_main_v3 (F := Ideal) x = Cert.SlidingMin.G x := by
  funext i
  obtain ⟨k, rfl⟩ : ∃ k : Fin 8388608, i = ix1 k := ⟨i 0, eq_ix1 i⟩
  have key := @reduceWindow_rank1_apply EReal 8388735 8388608 128 S_ (FloatOps.minimumf (F := Ideal) (φ := .f32))
    (val_main_v1 (F := Ideal) x) (val_main_v2 (F := Ideal)) reduceWindows_S8388735_S8388608_w128s1p0_0 h_S_ k
  unfold val_main_v3
  refine key.trans ?_
  have hstep : (fun (r : EReal) (n : ℕ) => FloatOps.minimumf (F := Ideal) (φ := .f32) r
        (if hin : k.val + n < 8388735 then val_main_v1 (F := Ideal) x (ix1 ⟨k.val + n, hin⟩)
          else val_main_v2 (F := Ideal) (Shape.Idx.first h_S_)))
      = fun r n => min r (pad x (k.val + n)) := by
    funext r n
    show min r _ = min r _
    congr 1
    by_cases hin : k.val + n < 8388735
    · rw [dif_pos hin]; exact val_main_v1_apply x ⟨k.val + n, hin⟩
    · rw [dif_neg hin, val_main_v2_top]
      unfold pad flat
      rw [if_pos (by omega), dif_neg (by omega)]
  rw [hstep, val_main_v2_top]
  show (List.range (127 + 1)).foldl _ _ = _
  rw [foldl_range_min (fun n => pad x (k.val + n)) ⊤ 127, min_eq_right le_top, winInf_shift (pad x) k.val 0 127]
  exact winInf_pad x k.val

end Cert.ReferenceIdeal.RefValue

end
-- ==== Proof.lean ====
/-
  The certificate of the sliding-window minimum kernel against its reference.

  Both programs compute, for a vector x of 8388608 floats, the causal window minimum of width 128:
  out i = min (x (max 0 (i - 127)), …, x i).  The reference pads 127 entries of +∞ in front and folds `min` over each
  window of 128, starting from +∞.  The kernel views x as 65536 rows of 128 lanes and works through 32 blocks of 2048
  rows; per row it computes the running minima from the left and from the right by seven doubling steps each (a lane
  rotation, a mask of +∞ on the lanes the rotation wrapped around, a minimum), and the window ending at row q, lane j
  is the tail of row q - 1 from lane j + 1 on together with the head of row q up to lane j; the last row's right scan is
  carried from one block to the next.  On the extended reals `min` is exact and +∞ is its neutral element, so the two
  sides are the same function with no condition on the input: the claim's precondition is never opened.

  The frames of the two kernel programs and the run of the reference are the generated ones; the ideal pass rewrote
  nothing, so `preserves` is `True`.  `algebraic`: the kernel's run ends with the result at the specification `G` of
  its argument (Proof/BlockValue.lean, over the body's arithmetic read at an index in Proof/Scans.lean and
  Proof/Combine.lean and the stored pieces read back in Proof/Pieces.lean), the reference's run ends at a term that
  is `G` of its argument too (Proof/RefRead.lean), and the arguments agree.
-/
import proofs.«168143_j80865644249734_1_alg».proof.Defs
import proofs.«168143_j80865644249734_1_alg».proof.Proof.Gen.Kernel
import proofs.«168143_j80865644249734_1_alg».proof.Proof.Gen.Kernel.Skeleton
import proofs.«168143_j80865644249734_1_alg».proof.Proof.Gen.Kernel.Launch
import proofs.«168143_j80865644249734_1_alg».proof.Proof.Gen.Kernel.Points
import proofs.«168143_j80865644249734_1_alg».proof.Proof.Gen.Kernel.Frame
import proofs.«168143_j80865644249734_1_alg».proof.Proof.Gen.KernelIdeal
import proofs.«168143_j80865644249734_1_alg».proof.Proof.Gen.KernelIdeal.Skeleton
import proofs.«168143_j80865644249734_1_alg».proof.Proof.Gen.KernelIdeal.Launch
import proofs.«168143_j80865644249734_1_alg».proof.Proof.Gen.KernelIdeal.Points
import proofs.«168143_j80865644249734_1_alg».proof.Proof.Gen.KernelIdeal.Frame
import proofs.«168143_j80865644249734_1_alg».proof.Proof.Gen.ReferenceIdeal
import proofs.«168143_j80865644249734_1_alg».proof.Proof.Gen.Pre_finite_inputs
import proofs.«168143_j80865644249734_1_alg».proof.Proof.Gen.ReferenceIdeal.Run
import proofs.«168143_j80865644249734_1_alg».proof.Proof.Gen.ReferenceIdeal.Read
import proofs.«168143_j80865644249734_1_alg».proof.Proof.BlockValue
import proofs.«168143_j80865644249734_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both runs end with the result at the window minimum `G` of the (agreeing) arguments. -/
theorem algebraic : Cert.algebraic_KernelIdeal_ReferenceIdeal := by
  intro m ρ m' ρ' _ hagree
  refine ⟨fun c => Cert.SlidingMin.G (m ((c.tc : Thread Cert.KernelIdeal.nD Cert.KernelIdeal.τ).loc Cert.KernelIdeal.main_arg0)),
    Cert.KernelIdeal.Carry.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefValue.ref_eq, hagree c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
